-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x50257 : Shape := ⟨3, ![16, 128, 50257]⟩
abbrev S50257x128 : Shape := ⟨2, ![50257, 128]⟩
abbrev S128 : Shape := ⟨1, ![128]⟩
abbrev S_ : Shape := ⟨0, ![]⟩

class Facts : Prop where
  bcast_S_S16x128x50257 : S_.BroadcastsInDim S16x128x50257 (![] : Fin 0 → Fin S16x128x50257.rank)
  reducesTo_S16x128x50257_S_d0_1_2 : S16x128x50257.ReducesTo [0, 1, 2] S_
  h_S_ : 0 < S_.numel
  bcast_S_S50257x128 : S_.BroadcastsInDim S50257x128 (![] : Fin 0 → Fin S50257x128.rank)
  reducesTo_S50257x128_S_d0_1 : S50257x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16x128x50257 .f32) (main_arg1 : FVec F S50257x128 .f32) (main_arg2 : FVec F S128 .f32) : IVec S_ 1 :=
  let main_v0 : FVec F S16x128x50257 .f32 := Host.absf main_arg0
  let main_cst : FVec F S_ .f32 := constant S_ .f32 0x7F800000#32
  let main_v1 : FVec F S16x128x50257 .f32 := broadcastInDim S16x128x50257 ![] bcast_S_S16x128x50257 main_cst
  let main_v2 : IVec S16x128x50257 1 := cmpf .olt main_v0 main_v1
  let main_c : IVec S_ 1 := constantI S_ 1 1#1
  let main_v3 : IVec S_ 1 := (fun x v => Host.reduce IntOp.andi x v reducesTo_S16x128x50257_S_d0_1_2 h_S_) main_v2 main_c
  let main_v4 : FVec F S50257x128 .f32 := Host.absf main_arg1
  let main_cst_0 : FVec F S_ .f32 := constant S_ .f32 0x7F800000#32
  let main_v5 : FVec F S50257x128 .f32 := broadcastInDim S50257x128 ![] bcast_S_S50257x128 main_cst_0
  let main_v6 : IVec S50257x128 1 := cmpf .olt main_v4 main_v5
  let main_c_1 : IVec S_ 1 := constantI S_ 1 1#1
  let main_v7 : IVec S_ 1 := (fun x v => Host.reduce IntOp.andi x v reducesTo_S50257x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16x128x50257 : Shape := ⟨3, ![16, 128, 50257]⟩
abbrev S50257x128 : Shape := ⟨2, ![50257, 128]⟩
abbrev S128 : Shape := ⟨1, ![128]⟩
abbrev S2048x50257 : Shape := ⟨2, ![2048, 50257]⟩
abbrev S1x128 : Shape := ⟨2, ![1, 128]⟩
abbrev S2048x128 : Shape := ⟨2, ![2048, 128]⟩
abbrev S64x50257 : Shape := ⟨2, ![64, 50257]⟩
abbrev S64x128 : Shape := ⟨2, ![64, 128]⟩
abbrev S64x12800 : Shape := ⟨2, ![64, 12800]⟩
abbrev S12800x128 : Shape := ⟨2, ![12800, 128]⟩
abbrev S64x11857 : Shape := ⟨2, ![64, 11857]⟩
abbrev S11857x128 : Shape := ⟨2, ![11857, 128]⟩
abbrev S16x128x128 : Shape := ⟨3, ![16, 128, 128]⟩

abbrev nBuf : Space → Nat
  | .hbm => 8
  | .vmem => 6
  | .smem => 0
  | _ => 0

abbrev bufTy : (tb : Table) → Fin (tcTables nBuf tb) → BufTy
  | .hbm, ⟨0, _⟩ => ⟨S16x128x50257, .f32⟩
  | .hbm, ⟨1, _⟩ => ⟨S50257x128, .f32⟩
  | .hbm, ⟨2, _⟩ => ⟨S128, .f32⟩
  | .hbm, ⟨3, _⟩ => ⟨S2048x50257, .f32⟩
  | .hbm, ⟨4, _⟩ => ⟨S50257x128, .bf16⟩
  | .hbm, ⟨5, _⟩ => ⟨S1x128, .f32⟩
  | .hbm, ⟨6, _⟩ => ⟨S2048x128, .f32⟩
  | .hbm, ⟨7, _⟩ => ⟨S16x128x128, .f32⟩
  | .local _ .vmem, ⟨0, _⟩ => ⟨S64x50257, .f32⟩
  | .local _ .vmem, ⟨1, _⟩ => ⟨S64x50257, .f32⟩
  | .local _ .vmem, ⟨2, _⟩ => ⟨S50257x128, .bf16⟩
  | .local _ .vmem, ⟨3, _⟩ => ⟨S1x128, .f32⟩
  | .local _ .vmem, ⟨4, _⟩ => ⟨S64x128, .f32⟩
  | .local _ .vmem, ⟨5, _⟩ => ⟨S64x128, .f32⟩
  | _, _ => ⟨S16x128x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50257x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x128x50257_S2048x50257 : S16x128x50257.ShapeCasts S2048x50257
  bitsLt_bf16_f32 : FTy.bits .bf16 < FTy.bits .f32
  shapeCasts_S128_S1x128 : S128.ShapeCasts S1x128
  inb_S64x50257_S64x12800_0_0 : ∀ a, (![0, 0] : Fin 2 → Nat) a + S64x12800.size a ≤ S64x50257.size a
  h_S64x12800 : 0 < S64x12800.numel
  shapeCasts_S64x12800_S64x12800 : S64x12800.ShapeCasts S64x12800
  inb_S50257x128_S12800x128_0_0 : ∀ a, (![0, 0] : Fin 2 → Nat) a + S12800x128.size a ≤ S50257x128.size a
  h_S12800x128 : 0 < S12800x128.numel
  shapeCasts_S12800x128_S12800x128 : S12800x128.ShapeCasts S12800x128
  inb_S64x50257_S64x12800_0_12800 : ∀ a, (![0, 12800] : Fin 2 → Nat) a + S64x12800.size a ≤ S64x50257.size a
  inb_S50257x128_S12800x128_12800_0 : ∀ a, (![12800, 0] : Fin 2 → Nat) a + S12800x128.size a ≤ S50257x128.size a
  inb_S64x50257_S64x12800_0_25600 : ∀ a, (![0, 25600] : Fin 2 → Nat) a + S64x12800.size a ≤ S64x50257.size a
  inb_S50257x128_S12800x128_25600_0 : ∀ a, (![25600, 0] : Fin 2 → Nat) a + S12800x128.size a ≤ S50257x128.size a
  inb_S64x50257_S64x11857_0_38400 : ∀ a, (![0, 38400] : Fin 2 → Nat) a + S64x11857.size a ≤ S64x50257.size a
  h_S64x11857 : 0 < S64x11857.numel
  shapeCasts_S64x11857_S64x11857 : S64x11857.ShapeCasts S64x11857
  inb_S50257x128_S11857x128_38400_0 : ∀ a, (![38400, 0] : Fin 2 → Nat) a + S11857x128.size a ≤ S50257x128.size a
  h_S11857x128 : 0 < S11857x128.numel
  shapeCasts_S11857x128_S11857x128 : S11857x128.ShapeCasts S11857x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S64x128_S64x128_0_0 : ∀ a, (![0, 0] : Fin 2 → Nat) a + S64x128.size a ≤ S64x128.size a
  h_S64x128 : 0 < S64x128.numel
  shapeCasts_S2048x128_S16x128x128 : S2048x128.ShapeCasts S16x128x128
  dot_S64x12800_S12800x128_S64x128_1_0_0_1_n_n_wf : DotDims.WF S64x12800 S12800x128 S64x128 [1] [0] [0] [1] [] []
  dot_S64x11857_S11857x128_S64x128_1_0_0_1_n_n_wf : DotDims.WF S64x11857 S11857x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x50257.size a ≤ S2048x50257.size a
  hwx0_0 : ∀ i : grid0.Coords, EltTy.bits .f32 = 32 ∨ (Rect.block (s := S2048x50257) S64x50257.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50257x128.size a ≤ S50257x128.size a
  hwx0_1 : ∀ i : grid0.Coords, EltTy.bits .bf16 = 32 ∨ (Rect.block (s := S50257x128) S50257x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S2048x128.size a
  hwx0_3 : ∀ i : grid0.Coords, EltTy.bits .f32 = 32 ∨ (Rect.block (s := S2048x128) S64x128.size (cc0_transform_3 i) (hinb0_3 i)).WholeWords (EltTy.packing .f32)

variable [Facts₀]

def dot_S64x12800_S12800x128_S64x128_1_0_0_1_n_n : DotDims S64x12800 S12800x128 S64x128 where
  lhsContracting := [1]
  rhsContracting := [0]
  lhsNonContracting := [0]
  rhsNonContracting := [1]
  lhsBatch := []
  rhsBatch := []
  wf := dot_S64x12800_S12800x128_S64x128_1_0_0_1_n_n_wf
def dot_S64x11857_S11857x128_S64x128_1_0_0_1_n_n : DotDims S64x11857 S11857x128 S64x128 where
  lhsContracting := [1]
  rhsContracting := [0]
  lhsNonContracting := [0]
  rhsNonContracting := [1]
  lhsBatch := []
  rhsBatch := []
  wf := dot_S64x11857_S11857x128_S64x128_1_0_0_1_n_n_wf

abbrev win0_0 : Pipeline.Window sig grid0 :=
  Pipeline.Window.ofSpec (Memref.whole main_v0) S64x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S50257x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x50257 : Shape := ⟨3, ![16, 128, 50257]⟩
abbrev S50257x128 : Shape := ⟨2, ![50257, 128]⟩
abbrev S128 : Shape := ⟨1, ![128]⟩
abbrev S16x128x128 : Shape := ⟨3, ![16, 128, 128]⟩
abbrev S1x1x128 : Shape := ⟨3, ![1, 1, 128]⟩

abbrev nBuf : Space → Nat
  | .hbm => 7
  | .vmem => 0
  | .smem => 0
  | _ => 0

abbrev bufTy : (tb : Table) → Fin (tcTables nBuf tb) → BufTy
  | .hbm, ⟨0, _⟩ => ⟨S16x128x50257, .f32⟩
  | .hbm, ⟨1, _⟩ => ⟨S50257x128, .f32⟩
  | .hbm, ⟨2, _⟩ => ⟨S128, .f32⟩
  | .hbm, ⟨3, _⟩ => ⟨S16x128x128, .f32⟩
  | .hbm, ⟨4, _⟩ => ⟨S1x1x128, .f32⟩
  | .hbm, ⟨5, _⟩ => ⟨S16x128x128, .f32⟩
  | .hbm, ⟨6, _⟩ => ⟨S16x128x128, .f32⟩
  | _, _ => ⟨S16x128x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x128x128_0_1_2 : S1x1x128.BroadcastsInDim S16x128x128 (![0, 1, 2] : Fin 3 → Fin S16x128x128.rank)
  dot_S16x128x50257_S50257x128_S16x128x128_2_0_01_1_n_n_wf : DotDims.WF S16x128x50257 S50257x128 S16x128x128 [2] [0] [0, 1] [1] [] []

variable [Facts₀]

def dot_S16x128x50257_S50257x128_S16x128x128_2_0_01_1_n_n : DotDims S16x128x50257 S50257x128 S16x128x128 where
  lhsContracting := [2]
  rhsContracting := [0]
  lhsNonContracting := [0, 1]
  rhsNonContracting := [1]
  lhsBatch := []
  rhsBatch := []
  wf := dot_S16x128x50257_S50257x128_S16x128x128_2_0_01_1_n_n_wf

class Facts : Prop extends Facts₀ where

variable [Facts]
-- ==== Proof.Spec.lean ====
/-
  The result both programs compute, index by index on the extended reals: a dense layer over the flattened
  (batch, step) rows. Entry (b, t, e) is the row-by-column sum `∑ v, inputs (b, t, v) * W (v, e)` plus the bias `b e`.
-/
import Idealize.ShloMosaic.PureOps.Ideal
import Idealize.ShloMosaic.Lib.ValueIdx

noncomputable section

namespace Cert.Spec

open Idealize.ShloMosaic Idealize.ShloMosaic.ValueIdx

/-- `inputs · W + b` at entry (b, t, e). -/
def embed (x : (⟨3, ![16, 128, 50257]⟩ : Shape).Idx → EReal) (w : (⟨2, ![50257, 128]⟩ : Shape).Idx → EReal)
    (b : (⟨1, ![128]⟩ : Shape).Idx → EReal) : (⟨3, ![16, 128, 128]⟩ : Shape).Idx → EReal :=
  fun i => (∑ k : Fin 50257, x (ix3 (i 0) (i 1) k) * w (ix2 k (i 2))) + b (ix1 (i 2))

end Cert.Spec

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.LibKSplit.lean ====
/-
  The contraction axis of a matrix product cut into consecutive chunks.

  For `x : [n, K]` and `w : [K, d]` the entry (r, j) of the product is `∑ k, x (r, k) * w (k, j)`. The part of that sum
  over the columns `off ≤ k < off + K'` is the entry of the product of the corresponding column block of `x` with the
  row block of `w`. Cutting `[0, K)` into consecutive chunks cuts the sum into the chunks' parts; on the extended
  reals a finite sum is a sum in a commutative monoid, so the regrouping is free and needs no finiteness.
-/
import proofs.«139003_j39376260170350_2_alg».proof.Proof.LibDense

noncomputable section

namespace Cert.LibKSplit

open Idealize.ShloMosaic Idealize.ShloMosaic.ValueIdx

/-- The part of entry `i`'s row-by-column sum over the `K'` columns from `off`. -/
def part {n K d : ℕ} (x : (⟨2, ![n, K]⟩ : Shape).Idx → EReal) (w : (⟨2, ![K, d]⟩ : Shape).Idx → EReal)
    (off K' : ℕ) (h : off + K' ≤ K) (i : (⟨2, ![n, d]⟩ : Shape).Idx) : EReal :=
  ∑ k : Fin K', x (ix2 (i 0) ⟨off + k.val, by have := k.isLt; omega⟩) * w (ix2 ⟨off + k.val, by have := k.isLt; omega⟩ (i 1))

/-- The whole sum is the part over all `K` columns. -/
theorem prod_eq_part {n K d : ℕ} (x : (⟨2, ![n, K]⟩ : Shape).Idx → EReal) (w : (⟨2, ![K, d]⟩ : Shape).Idx → EReal)
    (i : (⟨2, ![n, d]⟩ : Shape).Idx) : Cert.LibDense.prod x w i = part x w 0 K (by omega) i := by
  unfold Cert.LibDense.prod part
  refine Finset.sum_congr rfl fun k _ => ?_
  have e : (⟨0 + k.val, by have := k.isLt; omega⟩ : Fin K) = k := Fin.ext (Nat.zero_add _)
  rw [e]

/-- A part over `a + b` columns is the part over the first `a` plus the part over the next `b`. -/
theorem part_split {n K d : ℕ} (x : (⟨2, ![n, K]⟩ : Shape).Idx → EReal) (w : (⟨2, ![K, d]⟩ : Shape).Idx → EReal)
    (off a b off' ab : ℕ) (hab : a + b = ab) (hoff : off + a = off') (h : off + ab ≤ K) (i : (⟨2, ![n, d]⟩ : Shape).Idx) :
    part x w off ab h i = part x w off a (by omega) i + part x w off' b (by omega) i := by
  subst hab hoff
  unfold part
  rw [Fin.sum_univ_add]
  refine congrArg₂ (· + ·) rfl (Finset.sum_congr rfl fun k _ => ?_)
  have e : (⟨off + (Fin.natAdd a k).val, by have := k.isLt; simp only [Fin.coe_natAdd]; omega⟩ : Fin K)
      = ⟨off + a + k.val, by have := k.isLt; omega⟩ := Fin.ext (by simp only [Fin.coe_natAdd]; omega)
  exact congrArg₂ (· * ·) (congrArg x (congrArg (ix2 (i 0)) e)) (congrArg w (congrArg (fun r => ix2 r (i 1)) e))

/-- Four consecutive chunks, starting at `0`, `o₁`, `o₂`, `o₃`: the whole sum is the chunks' parts added from the left. -/
theorem prod_chunks4 {n K d : ℕ} (x : (⟨2, ![n, K]⟩ : Shape).Idx → EReal) (w : (⟨2, ![K, d]⟩ : Shape).Idx → EReal)
    (o₁ o₂ o₃ b c e : ℕ) (h₂ : o₁ + b = o₂) (h₃ : o₂ + c = o₃) (h₄ : o₃ + e = K) (i : (⟨2, ![n, d]⟩ : Shape).Idx) :
    Cert.LibDense.prod x w i
      = ((part x w 0 o₁ (by omega) i + part x w o₁ b (by omega) i) + part x w o₂ c (by omega) i) + part x w o₃ e (by omega) i := by
  rw [prod_eq_part, part_split x w 0 o₃ e o₃ K h₄ (Nat.zero_add _) (by omega) i,
    part_split x w 0 o₂ c o₂ o₃ h₃ (Nat.zero_add _) (by omega) i,
    part_split x w 0 o₁ b o₁ o₂ h₂ (Nat.zero_add _) (by omega) i]

/-- An entry of the product reads one row of `x` and one column of `w`: operands that agree there give the same entry. -/
theorem prod_congr {n n' K d : ℕ} (x : (⟨2, ![n, K]⟩ : Shape).Idx → EReal) (x' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (hx : ∀ k : Fin K, x (ix2 (i 0) k) = x' (ix2 (i' 0) k)) (hw : ∀ k : Fin K, w (ix2 k (i 1)) = w' (ix2 k (i' 1))) :
    Cert.LibDense.prod x w i = Cert.LibDense.prod x' w' i' := by
  unfold Cert.LibDense.prod
  exact Finset.sum_congr rfl fun k _ => congrArg₂ (· * ·) (hx k) (hw k)

end Cert.LibKSplit

end
-- ==== Proof.Block.lean ====
/-
  One grid point's output block, index by index, on the extended reals.

  The body cuts the 50257 columns of its row block `x : [64, 50257]` into four consecutive chunks (three of 12800 columns
  and one of 11857), multiplies each chunk by the matching rows of `w : [50257, 128]` on the matrix unit into a zero
  accumulator, adds the four products from the left onto a zero block and adds the bias row. A change of float format is
  the identity on the extended reals, each chunk's product at entry (p, q) is that chunk's part of the row-by-column sum
  `∑ k, x (p, k) * w (k, q)`, and the four parts add up to the whole sum: the block is `x · w + b`.
-/
import proofs.«139003_j39376260170350_2_alg».proof.Proof.Gen.KernelIdeal.Frame
import proofs.«139003_j39376260170350_2_alg».proof.Proof.LibKSplit
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx
open Cert.LibDense Cert.LibKSplit

/-- One chunk's product on the matrix unit, into the zero accumulator, at an entry: the row-by-column sum of the chunk
    (the rounding of the left operand to bf16 and the two identity shape casts read through). -/
theorem chunk_matmul {K' : ℕ} (D : DotDims ⟨2, ![64, K']⟩ ⟨2, ![K', 128]⟩ ⟨2, ![64, 128]⟩) (hD : D = DotDims.plain 64 K' 128)
    (v : FVec Ideal ⟨2, ![64, K']⟩ .f32) (w : FVec Ideal ⟨2, ![K', 128]⟩ .bf16)
    (h1 : (⟨2, ![64, K']⟩ : Shape).ShapeCasts ⟨2, ![64, K']⟩) (h2 : FTy.bits .bf16 < FTy.bits .f32)
    (h3 : (⟨2, ![K', 128]⟩ : Shape).ShapeCasts ⟨2, ![K', 128]⟩) (i : (⟨2, ![64, 128]⟩ : Shape).Idx) :
    matmul D none (truncf .bf16 (shapeCast ⟨2, ![64, K']⟩ v h1) h2) (shapeCast ⟨2, ![K', 128]⟩ w h3)
        (constant (F := Ideal) ⟨2, ![64, 128]⟩ .f32 0x00000000#32) i
      = prod v w i := by
  subst hD
  rw [shapeCast_self, shapeCast_self]
  exact matmul_plain (truncf .bf16 v h2) w i

/-- The bias row `[1, 128]` broadcast down the 64 rows, at entry (p, q), is its entry (0, q). -/
theorem bias_apply (v : Vec Ideal S1x128 .f32) (p : Fin 64) (q : Fin 128) :
    broadcastTo S64x128 (shapeCast S1x128 v shapeCasts_S1x128_S1x128) broadcasts_S1x128_S64x128 (ix2 p q) = v (ix2 0 q) := by
  rw [shapeCast_self]
  refine broadcastTo_apply v broadcasts_S1x128_S64x128 (ix2 p q) (ix2 0 q) (fun a => ?_)
  match a with
  | ⟨0, _⟩ => show 0 = if (1 : ℕ) = 1 then 0 else _; rw [if_pos rfl]
  | ⟨1, _⟩ => show q.val = if (128 : ℕ) = 1 then 0 else q.val; rw [if_neg (by decide)]

/-- The body's stored value at entry (p, q): the four chunks' products added from the left, plus the bias. -/
theorem pay_apply (v1 : Vec Ideal S64x12800 .f32) (v4 : Vec Ideal S12800x128 .bf16) (v8 : Vec Ideal S64x12800 .f32)
    (v11 : Vec Ideal S12800x128 .bf16) (v15 : Vec Ideal S64x12800 .f32) (v18 : Vec Ideal S12800x128 .bf16)
    (v22 : Vec Ideal S64x11857 .f32) (v25 : Vec Ideal S11857x128 .bf16) (v29 : Vec Ideal S1x128 .f32) (p : Fin 64) (q : Fin 128) :
    k0_pay1 (F := Ideal) v1 v4 v8 v11 v15 v18 v22 v25 v29 (ix2 p q)
      = (((prod v1 v4 (ix2 p q) + prod v8 v11 (ix2 p q)) + prod v15 v18 (ix2 p q)) + prod v22 v25 (ix2 p q)) + v29 (ix2 0 q) := by
  have e1 := chunk_matmul dot_S64x12800_S12800x128_S64x128_1_0_0_1_n_n rfl v1 v4 shapeCasts_S64x12800_S64x12800 bitsLt_bf16_f32 shapeCasts_S12800x128_S12800x128 (ix2 p q)
  have e2 := chunk_matmul dot_S64x12800_S12800x128_S64x128_1_0_0_1_n_n rfl v8 v11 shapeCasts_S64x12800_S64x12800 bitsLt_bf16_f32 shapeCasts_S12800x128_S12800x128 (ix2 p q)
  have e3 := chunk_matmul dot_S64x12800_S12800x128_S64x128_1_0_0_1_n_n rfl v15 v18 shapeCasts_S64x12800_S64x12800 bitsLt_bf16_f32 shapeCasts_S12800x128_S12800x128 (ix2 p q)
  have e4 := chunk_matmul dot_S64x11857_S11857x128_S64x128_1_0_0_1_n_n rfl v22 v25 shapeCasts_S64x11857_S64x11857 bitsLt_bf16_f32 shapeCasts_S11857x128_S11857x128 (ix2 p q)
  have eb := bias_apply v29 p q
  unfold k0_pay1
  simp only [addf_apply, broadcast_apply]
  rw [e1, e2, e3, e4, eb]
  show ((((Ideal.ofBits .f32 0x00000000#32 + _) + _) + _) + _) + _ = _
  rw [Ideal.ofBits_zero_f32, zero_add]

theorem hz : (![0, 0] : Fin 2 → ℕ) = fun _ => 0 := funext fun a => by fin_cases a <;> rfl

/-- A chunk's loaded column block of `x` times its loaded row block of `w`, at an entry, is the chunk's part of the
    whole row-by-column sum: column `k` of the chunk is column `off + k` of `x`, row `k` is row `off + k` of `w`. -/
theorem ld_part {K' : ℕ} (off : ℕ) (h : off + K' ≤ 50257)
    (inbx : ∀ a, (![0, off] : Fin 2 → ℕ) a + (⟨2, ![64, K']⟩ : Shape).size a ≤ S64x50257.size a)
    (inbw : ∀ a, (![off, 0] : Fin 2 → ℕ) a + (⟨2, ![K', 128]⟩ : Shape).size a ≤ S50257x128.size a)
    (x0 : Vec Ideal S64x50257 .f32) (x1 : Vec Ideal S50257x128 .bf16) (i : S64x128.Idx) :
    prod (View.ld x0 (Rect.unit ![0, off] (⟨2, ![64, K']⟩ : Shape).size inbx))
        (View.ld x1 (Rect.unit ![off, 0] (⟨2, ![K', 128]⟩ : Shape).size inbw)) i
      = part x0 x1 off K' h i := by
  unfold prod part
  refine Finset.sum_congr rfl fun k _ => ?_
  refine congrArg₂ (· * ·) (congrArg x0 (funext fun a => Fin.ext ?_)) (congrArg x1 (funext fun a => Fin.ext ?_))
  · match a with
    | ⟨0, _⟩ => show 0 + 1 * (i 0).val = (i 0).val; omega
    | ⟨1, _⟩ => show off + 1 * k.val = off + k.val; omega
  · match a with
    | ⟨0, _⟩ => show off + 1 * k.val = off + k.val; omega
    | ⟨1, _⟩ => show 0 + 1 * (i 1).val = (i 1).val; omega

/-- What the body leaves in the output block, at entry (p, q): row `p` of the row block times column `q` of `w`, plus
    the bias at `q`. -/
theorem block_apply (x0 : Vec Ideal S64x50257 .f32) (x1 : Vec Ideal S50257x128 .bf16) (x2 : Vec Ideal S1x128 .f32)
    (p : Fin 64) (q : Fin 128) :
    out0_3 (F := Ideal) x0 x1 x2 (ix2 p q) = prod x0 x1 (ix2 p q) + x2 (ix2 0 q) := by
  unfold out0_3
  rw [View.canon_unit_zero hz]
  refine (pay_apply _ _ _ _ _ _ _ _ _ p q).trans ?_
  rw [View.ld_unit_zero (S := S1x128) hz, prod_chunks4 x0 x1 12800 25600 38400 12800 12800 11857 rfl rfl rfl (ix2 p q)]
  exact congrArg₂ (· + ·) (congrArg₂ (· + ·) (congrArg₂ (· + ·) (congrArg₂ (· + ·)
    (ld_part 0 (by omega) _ _ x0 x1 (ix2 p q)) (ld_part 12800 (by omega) _ _ x0 x1 (ix2 p q)))
    (ld_part 25600 (by omega) _ _ x0 x1 (ix2 p q))) (ld_part 38400 (by omega) _ _ x0 x1 (ix2 p q))) rfl

end Cert.KernelIdeal.Block

end
-- ==== Proof.LibRowsReshape.lean ====
/-
  Merging the two leading axes of a rank-3 array into one row axis, and splitting them again, read at an index.

  A reshape keeps the row-major position. For `[a, b, c]` and `[a * b, c]` the element (i, j, k) sits at position
  `(i * b + j) * c + k`, and the element (r, k) at `r * c + k`: the two are the same element exactly when `r = i * b + j`.
-/
import Idealize.ShloMosaic.Lib.Pipeline.Value
import Idealize.ShloMosaic.Lib.ValueIdx

noncomputable section

namespace Cert.LibRowsReshape

open Idealize.ShloMosaic Idealize.ShloMosaic.ValueIdx

variable {α : Type}

/-- `[a, b, c]` cast to `[ab, c]`: row `r = i * b + j` at column `k` is the operand at (i, j, k). -/
theorem merge_apply {a b c ab : ℕ} (x : (⟨3, ![a, b, c]⟩ : Shape).Idx → α)
    (h : (⟨3, ![a, b, c]⟩ : Shape).ShapeCasts ⟨2, ![ab, c]⟩) (i : Fin a) (j : Fin b) (k : Fin c) (r : Fin ab)
    (hr : r.val = i.val * b + j.val) : shapeCast ⟨2, ![ab, c]⟩ x h (ix2 r k) = x (ix3 i j k) :=
  shapeCast_apply x h _ _ (by
    rw [Shape.rowMajor_val_two, Shape.rowMajor_val_three]
    show (i.val * b + j.val) * c + k.val = r.val * c + k.val
    rw [hr])

/-- `[ab, c]` cast to `[a, b, c]`: the element (i, j, k) is the operand's row `r = i * b + j` at column `k`. -/
theorem split_apply {a b c ab : ℕ} (x : (⟨2, ![ab, c]⟩ : Shape).Idx → α)
    (h : (⟨2, ![ab, c]⟩ : Shape).ShapeCasts ⟨3, ![a, b, c]⟩) (i : Fin a) (j : Fin b) (k : Fin c) (r : Fin ab)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibRowsReshape

end
-- ==== Proof.Result.lean ====
/-
  The kernel's program, read as a value on the extended reals.

  The host lines before the region flatten `inputs : [16, 128, 50257]` to rows `[2048, 50257]`, round `W` to bf16 (the
  identity on the extended reals) and view the bias as a `[1, 128]` row. Grid point `t` of the 32 reads rows
  `64 t … 64 t + 63`, all of `W` and the bias row, and writes rows `64 t … 64 t + 63` of the `[2048, 128]` result: each
  written row is that row of `rows · W + b`. The 32 row blocks tile the result, so after the run the result IS
  `rows · W + b`, and the last host line splits the row axis back into (batch, step).
-/
import proofs.«139003_j39376260170350_2_alg».proof.Proof.Gen.KernelIdeal.Frame
import proofs.«139003_j39376260170350_2_alg».proof.Proof.Block
import proofs.«139003_j39376260170350_2_alg».proof.Proof.LibRowsReshape
import proofs.«139003_j39376260170350_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)
open Cert.LibDense Cert.LibKSplit

variable (m : (ℓ : Loc nD τ sig) → Buf (Elt Ideal) ℓ) (ρ : Dev nD → PrngReg)

/-! ## The arrays the region finds -/

/-- The rows: `inputs` with its two leading axes merged. -/
theorem rows_eq (c : Dev nD) : (V m c main_v0 : S2048x50257.Idx → EReal)
    = shapeCast S2048x50257 (m ((c : Thread nD τ).loc main_arg0)) shapeCasts_S16x128x50257_S2048x50257 := by
  show StableHlo.after hostOps0 (fun b => m (c, b)) (Proc.devRef .tc main_v0) = _
  after_results
  rfl

/-- The weights: `W` rounded to bf16, which on the extended reals is `W`. -/
theorem weights_eq (c : Dev nD) : (V m c main_v1 : S50257x128.Idx → EReal) = m ((c : Thread nD τ).loc main_arg1) := by
  show StableHlo.after hostOps0 (fun b => m (c, b)) (Proc.devRef .tc main_v1) = _
  after_results
  rfl

/-- The bias row: `b` with a leading unit axis. -/
theorem biasRow_eq (c : Dev nD) : (V m c main_v2 : S1x128.Idx → EReal)
    = shapeCast S1x128 (m ((c : Thread nD τ).loc main_arg2)) shapeCasts_S128_S1x128 := by
  show StableHlo.after hostOps0 (fun b => m (c, b)) (Proc.devRef .tc main_v2) = _
  after_results
  rfl

/-! ## One function for the whole `[2048, 128]` result -/

/-- `rows · W + b` at entry (r, q). -/
def dense (A0 : S2048x50257.Idx → EReal) (A1 : S50257x128.Idx → EReal) (A2 : S1x128.Idx → EReal) : S2048x128.Idx → EReal :=
  fun i => prod A0 A1 i + A2 (ix2 0 (i 1))

/-- A block's entry is the result's entry when the block's row is the result's row, its `W` the result's and its bias
    row the result's. -/
theorem block_eq_dense (x0 : Vec Ideal S64x50257 .f32) (x1 : Vec Ideal S50257x128 .bf16) (x2 : Vec Ideal S1x128 .f32)
    (A0 : S2048x50257.Idx → EReal) (A1 : S50257x128.Idx → EReal) (A2 : S1x128.Idx → EReal)
    (j : S64x128.Idx) (i : S2048x128.Idx)
    (h0 : ∀ k : Fin 50257, x0 (ix2 (j 0) k) = A0 (ix2 (i 0) k))
    (h1 : ∀ k : Fin 50257, x1 (ix2 k (j 1)) = A1 (ix2 k (i 1)))
    (h2 : x2 (ix2 0 (j 1)) = A2 (ix2 0 (i 1))) :
    out0_3 (F := Ideal) x0 x1 x2 j = dense A0 A1 A2 i := by
  obtain ⟨p, q, rfl⟩ : ∃ (p : Fin 64) (q : Fin 128), j = ix2 p q := ⟨j 0, j 1, eq_ix2 j⟩
  refine (Cert.KernelIdeal.Block.block_apply x0 x1 x2 p q).trans ?_
  unfold dense
  exact congrArg₂ (· + ·) (prod_congr x0 A0 x1 A1 (ix2 p q) i h0 h1) h2

/-- The printed index maps, decided over the grid: the row block of `inputs` moves with the output's row block, every
    other block index is zero, and the output's row block index is below 32. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 31 :=
  (by decide +kernel : ∀ t : Fin grid0.N, _)

/-- Every row block is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- What point `t` writes back is block `t` of `dense` of the arrays the region finds. -/
theorem flushed_eq (c : Dev nD) (t : Fin cfg0.N) :
    (dats m 0 c).flushed 3 t = ((cfg0.win 3).blk t).view.read (Elt Ideal)
      (dense (V m c main_v0) (V m c main_v1) (V m c main_v2)) := by
  show (cfg0.win 3).cut (grid0.coords t) ((dats m 0 c).after 3 t) = _
  rw [after0_3]
  obtain ⟨e0, e1, e2, e3, e4, e5, e6, e7⟩ := idx_facts t
  funext j
  refine block_eq_dense (iblk m c 0 t) (iblk m c 1 t) (iblk m c 2 t) (V m c main_v0) (V m c main_v1) (V m c main_v2) j
    (((cfg0.win 3).blk t).view.emb j) (fun k => ?_) (fun k => ?_) ?_
  · show V m c main_v0 (((cfg0.win 0).blk t).view.emb (ix2 (j 0) k)) = V m c main_v0 _
    refine congrArg (V m c main_v0) (funext fun a => Fin.ext ?_)
    match a with
    | ⟨0, _⟩ => show win0_0.index t (0 : Fin 2) * 64 + 1 * (j 0).val = win0_3.index t (0 : Fin 2) * 64 + 1 * (j 0).val; rw [e0]
    | ⟨1, _⟩ => show win0_0.index t (1 : Fin 2) * 50257 + 1 * k.val = k.val; rw [e1]; omega
  · show V m c main_v1 (((cfg0.win 1).blk t).view.emb (ix2 k (j 1))) = V m c main_v1 _
    refine congrArg (V m c main_v1) (funext fun a => Fin.ext ?_)
    match a with
    | ⟨0, _⟩ => show win0_1.index t (0 : Fin 2) * 50257 + 1 * k.val = k.val; rw [e2]; omega
    | ⟨1, _⟩ => show win0_1.index t (1 : Fin 2) * 128 + 1 * (j 1).val = win0_3.index t (1 : Fin 2) * 128 + 1 * (j 1).val; rw [e3, e6]
  · show V m c main_v2 (((cfg0.win 2).blk t).view.emb (ix2 0 (j 1))) = V m c main_v2 _
    refine congrArg (V m c main_v2) (funext fun a => Fin.ext ?_)
    match a with
    | ⟨0, _⟩ => show win0_2.index t (0 : Fin 2) * 1 + 1 * 0 = 0; rw [e4]
    | ⟨1, _⟩ => show win0_2.index t (1 : Fin 2) * 128 + 1 * (j 1).val = win0_3.index t (1 : Fin 2) * 128 + 1 * (j 1).val; rw [e5, e6]

/-- An index of the result is in point `t`'s block iff each coordinate is in the block's range on its axis. -/
theorem mem_blk (t : Fin cfg0.N) (i : S2048x128.Idx) :
    i ∈ ((cfg0.win 3).blk t).view.set ↔ ∀ a : Fin 2, win0_3.index t a * S64x128.size a ≤ (i a).val
      ∧ (i a).val < win0_3.index t a * S64x128.size a + S64x128.size a := by
  show i ∈ ((View.whole main_v3).slice (win0_3.rect t)).set ↔ _
  rw [View.set_slice_whole, Rect.mem_set_unit]
  exact Iff.rfl

/-- The 32 row blocks cover the result: row `r` is in the block of the point whose row block index is `r / 64`. -/
theorem cover (i : S2048x128.Idx) :
    ∃ t : Fin cfg0.N, (cfg0.win 3).flush t = true ∧ i ∈ ((cfg0.win 3).blk t).view.set := by
  have hi0 : (i 0).val < 2048 := idx2_lt0 i
  have hi1 : (i 1).val < 128 := idx2_lt1 i
  obtain ⟨t, ht⟩ := idx_onto ⟨(i 0).val / 64, by omega⟩
  have q0 : win0_3.index t (0 : Fin 2) = (i 0).val / 64 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 128 ≤ (i 1).val ∧ (i 1).val < win0_3.index t (1 : Fin 2) * 128 + 128
    omega

/-- The result array after the run. -/
theorem final (c : Dev nD) :
    (dats m 0 c).arrAt 3 cfg0.N = dense (V m c main_v0) (V m c main_v1) (V m c main_v2) :=
  (dats m 0 c).arrAt_eq_of_cover 3 _ (fun t _ => flushed_eq m c t) cover

/-! ## The host line after the region, and the whole program's result -/

/-- The last line splits the row axis of the region's result. -/
theorem tail_eq (c : Dev nD) :
    (Pipeline.afterTail₀ cfgs (dats m) 0 (V0 m) [hostOps1] c main_v4 : S16x128x128.Idx → EReal)
      = shapeCast S16x128x128 (dense (V m c main_v0) (V m c main_v1) (V m c main_v2)) shapeCasts_S2048x128_S16x128x128 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = dense (V m c main_v0) (V m c main_v1) (V m c main_v2) :=
    (Pipeline.withArrays_arr spec0 launch0.win.arr_inj c _ _ 3).trans (final m c)
  rw [e]
  rfl

/-- The program's result, index by index: `inputs · W + b`. -/
theorem result_eq (c : Dev nD) :
    (Pipeline.afterTail₀ cfgs (dats m) 0 (V0 m) [hostOps1] c main_v4 : S16x128x128.Idx → EReal)
      = Cert.Spec.embed (m ((c : Thread nD τ).loc main_arg0)) (m ((c : Thread nD τ).loc main_arg1)) (m ((c : Thread nD τ).loc main_arg2)) := by
  rw [tail_eq]
  funext i
  obtain ⟨b, s, e, rfl⟩ : ∃ (b : Fin 16) (s : Fin 128) (e : Fin 128), i = ix3 b s e := ⟨i 0, i 1, i 2, eq_ix3 i⟩
  have hb : b.val < 16 := b.isLt
  have hs : s.val < 128 := s.isLt
  refine (Cert.LibRowsReshape.split_apply _ shapeCasts_S2048x128_S16x128x128 b s e ⟨b.val * 128 + s.val, by omega⟩ rfl).trans ?_
  unfold dense Cert.Spec.embed prod
  refine congrArg₂ (· + ·) (Finset.sum_congr rfl fun k _ => congrArg₂ (· * ·) ?_ ?_) ?_
  · rw [rows_eq]
    exact Cert.LibRowsReshape.merge_apply _ shapeCasts_S16x128x50257_S2048x50257 b s k ⟨b.val * 128 + s.val, by omega⟩ rfl
  · rw [weights_eq]
  · rw [biasRow_eq]
    exact shapeCast_a_1a_apply _ shapeCasts_S128_S1x128 0 e

/-! ## The run -/

/-- Every weakly fair execution of the program ends with its result at `inputs · W + b` of the arguments, and the
    arguments unchanged. -/
theorem run : θ_run defs (onTc (τ := τ) (main (F := Ideal))) ⟨m, fun _ => 0, ρ⟩ fun r => ∀ c : Dev nD,
      r.2.mem ((c.tc : Thread nD τ).loc main_v4)
        = Cert.Spec.embed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference at an index. Its dot_general contracts the last axis of `inputs` with the first of `W`, so its entry
  (b, t, e) is `∑ v, inputs (b, t, v) * W (v, e)`; the bias is broadcast along the two leading axes, so it adds `b e`.
-/
import proofs.«139003_j39376260170350_2_alg».proof.Proof.Gen.ReferenceIdeal.Read
import proofs.«139003_j39376260170350_2_alg».proof.Proof.Spec

noncomputable section

namespace Cert.ReferenceIdeal.RefValue

open Cert.ReferenceIdeal Cert.ReferenceIdeal.Read Idealize.ShloMosaic Idealize.ShloMosaic.ValueIdx

/-- The reference's last stage is `inputs · W + b`. -/
theorem result_eq (x0 : (⟨S16x128x50257, .f32⟩ : BufTy).Contents (Elt Ideal)) (x1 : (⟨S50257x128, .f32⟩ : BufTy).Contents (Elt Ideal))
    (x2 : (⟨S128, .f32⟩ : BufTy).Contents (Elt Ideal)) :
    val_main_v3 (F := Ideal) x0 x1 x2 = Cert.Spec.embed x0 x1 x2 := by
  funext i
  have el : ∀ k : Fin 50257, lidx_main_v0 i k = ix3 (i 0) (i 1) k := fun k => funext fun a => Fin.ext (by
    match a with | ⟨0, _⟩ => rfl | ⟨1, _⟩ => rfl | ⟨2, _⟩ => rfl)
  have er : ∀ k : Fin 50257, ridx_main_v0 i k = ix2 k (i 2) := fun k => funext fun a => Fin.ext (by
    match a with | ⟨0, _⟩ => rfl | ⟨1, _⟩ => rfl)
  have eb : idx_main_v1 (idx_main_v2 i) = ix1 (i 2) := funext fun a => Fin.ext (by
    match a with | ⟨0, _⟩ => rfl)
  rw [val_main_v3_apply, val_main_v0_apply, val_main_v2_apply, val_main_v1_apply]
  unfold Cert.Spec.embed
  simp only [el, er, eb]
  rfl

end Cert.ReferenceIdeal.RefValue

end
-- ==== Proof.lean ====
/-
  The kernel and its reference compute one function on the extended reals: a dense layer `inputs · W + b` over the
  flattened (batch, step) rows, entry (b, t, e) being `∑ v, inputs (b, t, v) * W (v, e) + b e`.

  The kernel flattens `inputs` to 2048 rows and walks them in 32 blocks of 64 rows. For a block it cuts the 50257 columns
  into four consecutive chunks, multiplies each chunk by the matching rows of `W` into a zero accumulator, adds the four
  products and the bias row, and the result's row axis is split back into (batch, step). Rounding an operand to bf16 is
  the identity on the extended reals, and a finite sum there is a sum in a commutative monoid, so the four chunk sums add
  up to the whole row-by-column sum whatever the values — infinite ones included: the precondition is never opened.
  The reference is the same sum read off its dot_general, with the bias broadcast along the two leading axes.

  Spec.lean states the function; Block.lean reads one block of the kernel's body at an entry; Result.lean carries the
  blocks to the whole result array and through the host lines around the region; RefValue.lean reads the reference;
  LibKSplit.lean is the regrouping of the sum, LibRowsReshape.lean the merged row axis at an index, LibDense.lean the
  matrix unit's product as a row-by-column sum. The frames of the two kernel programs are the generated ones, the
  reference's frame is its generated run with the result dropped, and the idealization rewrote nothing.
-/
import proofs.«139003_j39376260170350_2_alg».proof.Defs
import proofs.«139003_j39376260170350_2_alg».proof.Proof.Gen.Kernel
import proofs.«139003_j39376260170350_2_alg».proof.Proof.Gen.Kernel.Frame
import proofs.«139003_j39376260170350_2_alg».proof.Proof.Gen.KernelIdeal
import proofs.«139003_j39376260170350_2_alg».proof.Proof.Gen.KernelIdeal.Frame
import proofs.«139003_j39376260170350_2_alg».proof.Proof.Gen.ReferenceIdeal
import proofs.«139003_j39376260170350_2_alg».proof.Proof.Gen.ReferenceIdeal.Run
import proofs.«139003_j39376260170350_2_alg».proof.Proof.Gen.ReferenceIdeal.Read
import proofs.«139003_j39376260170350_2_alg».proof.Proof.Gen.Pre_finite_inputs
import proofs.«139003_j39376260170350_2_alg».proof.Proof.Spec
import proofs.«139003_j39376260170350_2_alg».proof.Proof.Result
import proofs.«139003_j39376260170350_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- Both programs end at `inputs · W + b` of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
